-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S768x512 : Shape := ⟨2, ![768, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S512 .f32) (main_arg5 : FVec F S512x768 .f32) (main_arg6 : FVec F S768 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x768 .f32 := Host.absf main_arg5
  let main_cst_8 : FVec F S_ .f32 := constant S_ .f32 0x7F800000#32
  let main_v25 : FVec F S512x768 .f32 := broadcastInDim S512x768 ![] bcast_S_S512x768 main_cst_8
  let main_v26 : IVec S512x768 1 := cmpf .olt main_v24 main_v25
  let main_c_9 : IVec S_ 1 := constantI S_ 1 1#1
  let main_v27 : IVec S_ 1 := (fun x v => Host.reduce IntOp.andi x v reducesTo_S512x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S64x512x768 .f32) (main_arg1 : FVec F S768x512 .f32) (main_arg2 : FVec F S512 .f32) (main_arg3 : FVec F S512x512 .f32) (main_arg4 : FVec F S512 .f32) (main_arg5 : FVec F S512x768 .f32) (main_arg6 : FVec F S768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S64x512x768 : Shape := ⟨3, ![64, 512, 768]⟩
abbrev S768x512 : Shape := ⟨2, ![768, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S64x128x768 : Shape := ⟨3, ![64, 128, 768]⟩
abbrev S4x512x768 : Shape := ⟨3, ![4, 512, 768]⟩
abbrev S4x128x768 : Shape := ⟨3, ![4, 128, 768]⟩
abbrev S4x768 : Shape := ⟨2, ![4, 768]⟩
abbrev S4x512 : Shape := ⟨2, ![4, 512]⟩
abbrev S1x512 : Shape := ⟨2, ![1, 512]⟩
abbrev S1x768 : Shape := ⟨2, ![1, 768]⟩
abbrev S4x1x768 : Shape := ⟨3, ![4, 1, 768]⟩

abbrev nBuf : Space → Nat
  | .hbm => 8
  | .vmem => 10
  | .smem => 0
  | _ => 0

abbrev bufTy : (tb : Table) → Fin (tcTables nBuf tb) → BufTy
  | .hbm, ⟨0, _⟩ => ⟨S64x512x768, .f32⟩
  | .hbm, ⟨1, _⟩ => ⟨S768x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x768, .f32⟩
  | .hbm, ⟨6, _⟩ => ⟨S768, .f32⟩
  | .hbm, ⟨7, _⟩ => ⟨S64x128x768, .f32⟩
  | .local _ .vmem, ⟨0, _⟩ => ⟨S4x512x768, .f32⟩
  | .local _ .vmem, ⟨1, _⟩ => ⟨S4x512x768, .f32⟩
  | .local _ .vmem, ⟨2, _⟩ => ⟨S768x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x768, .f32⟩
  | .local _ .vmem, ⟨7, _⟩ => ⟨S768, .f32⟩
  | .local _ .vmem, ⟨8, _⟩ => ⟨S4x128x768, .f32⟩
  | .local _ .vmem, ⟨9, _⟩ => ⟨S4x128x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S4x512x768_S4x512x768_0_0_0 : ∀ a, (![0, 0, 0] : Fin 3 → Nat) a + S4x512x768.size a ≤ S4x512x768.size a
  h_S4x512x768 : 0 < S4x512x768.numel
  reduces_S4x512x768_S4x768 : S4x512x768.Reduces [1] S4x768
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  inb_S512_S512_0 : ∀ a, (![0] : Fin 1 → Nat) a + S512.size a ≤ S512.size a
  h_S512 : 0 < S512.numel
  shapeCasts_S512_S1x512 : S512.ShapeCasts S1x512
  broadcasts_S1x512_S4x512 : S1x512.Broadcasts S4x512
  inb_S512x512_S512x512_0_0 : ∀ a, (![0, 0] : Fin 2 → Nat) a + S512x512.size a ≤ S512x512.size a
  h_S512x512 : 0 < S512x512.numel
  inb_S512x768_S512x768_0_0 : ∀ a, (![0, 0] : Fin 2 → Nat) a + S512x768.size a ≤ S512x768.size a
  h_S512x768 : 0 < S512x768.numel
  inb_S768_S768_0 : ∀ a, (![0] : Fin 1 → Nat) a + S768.size a ≤ S768.size a
  h_S768 : 0 < S768.numel
  shapeCasts_S768_S1x768 : S768.ShapeCasts S1x768
  broadcasts_S1x768_S4x768 : S1x768.Broadcasts S4x768
  shapeCasts_S4x768_S4x1x768 : S4x768.ShapeCasts S4x1x768
  shapeCasts_S4x1x768_S4x1x768 : S4x1x768.ShapeCasts S4x1x768
  broadcasts_S4x1x768_S4x128x768 : S4x1x768.Broadcasts S4x128x768
  inb_S4x128x768_S4x128x768_0_0_0 : ∀ a, (![0, 0, 0] : Fin 3 → Nat) a + S4x128x768.size a ≤ S4x128x768.size a
  h_S4x128x768 : 0 < S4x128x768.numel
  dot_S4x768_S768x512_S4x512_1_0_0_1_n_n_wf : DotDims.WF S4x768 S768x512 S4x512 [1] [0] [0] [1] [] []
  dot_S4x512_S512x512_S4x512_1_0_0_1_n_n_wf : DotDims.WF S4x512 S512x512 S4x512 [1] [0] [0] [1] [] []
  dot_S4x512_S512x768_S4x768_1_0_0_1_n_n_wf : DotDims.WF S4x512 S512x768 S4x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S64x512x768.size a
  hwx0_0 : ∀ i : grid0.Coords, EltTy.bits .f32 = 32 ∨ (Rect.block (s := S64x512x768) S4x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S768x512.size a
  hwx0_1 : ∀ i : grid0.Coords, EltTy.bits .f32 = 32 ∨ (Rect.block (s := S768x512) S768x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x768.size a ≤ S512x768.size a
  hwx0_5 : ∀ i : grid0.Coords, EltTy.bits .f32 = 32 ∨ (Rect.block (s := S512x768) S512x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x128x768.size a ≤ S64x128x768.size a
  hwx0_7 : ∀ i : grid0.Coords, EltTy.bits .f32 = 32 ∨ (Rect.block (s := S64x128x768) S4x128x768.size (cc0_transform_7 i) (hinb0_7 i)).WholeWords (EltTy.packing .f32)

variable [Facts₀]

def dot_S4x768_S768x512_S4x512_1_0_0_1_n_n : DotDims S4x768 S768x512 S4x512 where
  lhsContracting := [1]
  rhsContracting := [0]
  lhsNonContracting := [0]
  rhsNonContracting := [1]
  lhsBatch := []
  rhsBatch := []
  wf := dot_S4x768_S768x512_S4x512_1_0_0_1_n_n_wf
def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf
def dot_S4x512_S512x768_S4x768_1_0_0_1_n_n : DotDims S4x512 S512x768 S4x768 where
  lhsContracting := [1]
  rhsContracting := [0]
  lhsNonContracting := [0]
  rhsNonContracting := [1]
  lhsBatch := []
  rhsBatch := []
  wf := dot_S4x512_S512x768_S4x768_1_0_0_1_n_n_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4x128x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S768x512 : Shape := ⟨2, ![768, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S64x512x512 : Shape := ⟨3, ![64, 512, 512]⟩
abbrev S_ : Shape := ⟨0, ![]⟩
abbrev S64x512 : Shape := ⟨2, ![64, 512]⟩
abbrev S64x1x512 : Shape := ⟨3, ![64, 1, 512]⟩
abbrev S1x1x512 : Shape := ⟨3, ![1, 1, 512]⟩
abbrev S64x768 : Shape := ⟨2, ![64, 768]⟩
abbrev S64x1x768 : Shape := ⟨3, ![64, 1, 768]⟩
abbrev S1x1x768 : Shape := ⟨3, ![1, 1, 768]⟩
abbrev S64x128x768 : Shape := ⟨3, ![64, 128, 768]⟩

abbrev nBuf : Space → Nat
  | .hbm => 50
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S768x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x768, .f32⟩
  | .hbm, ⟨6, _⟩ => ⟨S768, .f32⟩
  | .hbm, ⟨7, _⟩ => ⟨S64x512x512, .f32⟩
  | .hbm, ⟨8, _⟩ => ⟨S_, .f32⟩
  | .hbm, ⟨9, _⟩ => ⟨S64x512, .f32⟩
  | .hbm, ⟨10, _⟩ => ⟨S64x1x512, .f32⟩
  | .hbm, ⟨11, _⟩ => ⟨S_, .f32⟩
  | .hbm, ⟨12, _⟩ => ⟨S64x1x512, .f32⟩
  | .hbm, ⟨13, _⟩ => ⟨S64x1x512, .f32⟩
  | .hbm, ⟨14, _⟩ => ⟨S1x1x512, .f32⟩
  | .hbm, ⟨15, _⟩ => ⟨S64x1x512, .f32⟩
  | .hbm, ⟨16, _⟩ => ⟨S64x1x512, .f32⟩
  | .hbm, ⟨17, _⟩ => ⟨S64x512x512, .f32⟩
  | .hbm, ⟨18, _⟩ => ⟨S_, .f32⟩
  | .hbm, ⟨19, _⟩ => ⟨S64x512x512, .f32⟩
  | .hbm, ⟨20, _⟩ => ⟨S64x512x512, .f32⟩
  | .hbm, ⟨21, _⟩ => ⟨S64x512x512, .f32⟩
  | .hbm, ⟨22, _⟩ => ⟨S_, .f32⟩
  | .hbm, ⟨23, _⟩ => ⟨S64x512, .f32⟩
  | .hbm, ⟨24, _⟩ => ⟨S64x1x512, .f32⟩
  | .hbm, ⟨25, _⟩ => ⟨S_, .f32⟩
  | .hbm, ⟨26, _⟩ => ⟨S64x1x512, .f32⟩
  | .hbm, ⟨27, _⟩ => ⟨S64x1x512, .f32⟩
  | .hbm, ⟨28, _⟩ => ⟨S1x1x512, .f32⟩
  | .hbm, ⟨29, _⟩ => ⟨S64x1x512, .f32⟩
  | .hbm, ⟨30, _⟩ => ⟨S64x1x512, .f32⟩
  | .hbm, ⟨31, _⟩ => ⟨S64x512x512, .f32⟩
  | .hbm, ⟨32, _⟩ => ⟨S_, .f32⟩
  | .hbm, ⟨33, _⟩ => ⟨S64x512x512, .f32⟩
  | .hbm, ⟨34, _⟩ => ⟨S64x512x512, .f32⟩
  | .hbm, ⟨35, _⟩ => ⟨S64x512x768, .f32⟩
  | .hbm, ⟨36, _⟩ => ⟨S_, .f32⟩
  | .hbm, ⟨37, _⟩ => ⟨S64x768, .f32⟩
  | .hbm, ⟨38, _⟩ => ⟨S64x1x768, .f32⟩
  | .hbm, ⟨39, _⟩ => ⟨S_, .f32⟩
  | .hbm, ⟨40, _⟩ => ⟨S64x1x768, .f32⟩
  | .hbm, ⟨41, _⟩ => ⟨S64x1x768, .f32⟩
  | .hbm, ⟨42, _⟩ => ⟨S1x1x768, .f32⟩
  | .hbm, ⟨43, _⟩ => ⟨S64x1x768, .f32⟩
  | .hbm, ⟨44, _⟩ => ⟨S64x1x768, .f32⟩
  | .hbm, ⟨45, _⟩ => ⟨S64x512x768, .f32⟩
  | .hbm, ⟨46, _⟩ => ⟨S_, .f32⟩
  | .hbm, ⟨47, _⟩ => ⟨S64x512x768, .f32⟩
  | .hbm, ⟨48, _⟩ => ⟨S64x512x768, .f32⟩
  | .hbm, ⟨49, _⟩ => ⟨S64x128x768, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call2_cst : Ref sig .tc := ⟨.hbm, 46, rfl⟩
abbrev main_call2_v0 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  reducesTo_S64x512x512_S64x512_d1 : S64x512x512.ReducesTo [1] S64x512
  h_S_ : 0 < S_.numel
  bcast_S64x512_S64x1x512_0_2 : S64x512.BroadcastsInDim S64x1x512 (![0, 2] : Fin 2 → Fin S64x1x512.rank)
  bcast_S_S64x1x512 : S_.BroadcastsInDim S64x1x512 (![] : Fin 0 → Fin S64x1x512.rank)
  bcast_S512_S1x1x512_2 : S512.BroadcastsInDim S1x1x512 (![2] : Fin 1 → Fin S1x1x512.rank)
  bcast_S1x1x512_S64x1x512_0_1_2 : S1x1x512.BroadcastsInDim S64x1x512 (![0, 1, 2] : Fin 3 → Fin S64x1x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  reducesTo_S64x512x768_S64x768_d1 : S64x512x768.ReducesTo [1] S64x768
  bcast_S64x768_S64x1x768_0_2 : S64x768.BroadcastsInDim S64x1x768 (![0, 2] : Fin 2 → Fin S64x1x768.rank)
  bcast_S_S64x1x768 : S_.BroadcastsInDim S64x1x768 (![] : Fin 0 → Fin S64x1x768.rank)
  bcast_S768_S1x1x768_2 : S768.BroadcastsInDim S1x1x768 (![2] : Fin 1 → Fin S1x1x768.rank)
  bcast_S1x1x768_S64x1x768_0_1_2 : S1x1x768.BroadcastsInDim S64x1x768 (![0, 1, 2] : Fin 3 → Fin S64x1x768.rank)
  bcast_S64x1x768_S64x512x768_0_1_2 : S64x1x768.BroadcastsInDim S64x512x768 (![0, 1, 2] : Fin 3 → Fin S64x512x768.rank)
  bcast_S_S64x512x768 : S_.BroadcastsInDim S64x512x768 (![] : Fin 0 → Fin S64x512x768.rank)
  slices_S64x512x768_S64x128x768_0_0_0 : S64x512x768.Slices ![0, 0, 0] S64x128x768
  dot_S64x512x768_S768x512_S64x512x512_2_0_01_1_n_n_wf : DotDims.WF S64x512x768 S768x512 S64x512x512 [2] [0] [0, 1] [1] [] []
  dot_S64x512x512_S512x512_S64x512x512_2_0_01_1_n_n_wf : DotDims.WF S64x512x512 S512x512 S64x512x512 [2] [0] [0, 1] [1] [] []
  dot_S64x512x512_S512x768_S64x512x768_2_0_01_1_n_n_wf : DotDims.WF S64x512x512 S512x768 S64x512x768 [2] [0] [0, 1] [1] [] []

variable [Facts₀]

def dot_S64x512x768_S768x512_S64x512x512_2_0_01_1_n_n : DotDims S64x512x768 S768x512 S64x512x512 where
  lhsContracting := [2]
  rhsContracting := [0]
  lhsNonContracting := [0, 1]
  rhsNonContracting := [1]
  lhsBatch := []
  rhsBatch := []
  wf := dot_S64x512x768_S768x512_S64x512x512_2_0_01_1_n_n_wf
def dot_S64x512x512_S512x512_S64x512x512_2_0_01_1_n_n : DotDims S64x512x512 S512x512 S64x512x512 where
  lhsContracting := [2]
  rhsContracting := [0]
  lhsNonContracting := [0, 1]
  rhsNonContracting := [1]
  lhsBatch := []
  rhsBatch := []
  wf := dot_S64x512x512_S512x512_S64x512x512_2_0_01_1_n_n_wf
def dot_S64x512x512_S512x768_S64x512x768_2_0_01_1_n_n : DotDims S64x512x512 S512x768 S64x512x768 where
  lhsContracting := [2]
  rhsContracting := [0]
  lhsNonContracting := [0, 1]
  rhsNonContracting := [1]
  lhsBatch := []
  rhsBatch := []
  wf := dot_S64x512x512_S512x768_S64x512x768_2_0_01_1_n_n_wf

class Facts : Prop extends Facts₀ where

variable [Facts]
-- ==== Proof.FiniteEntries.lean ====
/-
  What the precondition says: every entry of the seven argument arrays is a real number.

  `finite_inputs` is the conjunction, over the seven arrays, of "every entry `x` has `|x| < +∞`".  On the extended reals
  `|x| = max x (-x)` is `+∞` exactly at the two infinities, so `|x| < +∞` holds exactly when `x` is a real number.
-/
import proofs.«126272_j90683939487935_2_alg».proof.Pre_finite_inputs
import Idealize.ShloMosaic.PureOps.Ideal
import Idealize.ShloMosaic.Lib.ValueIdx
import Idealize.ShloMosaic.Lib.ReduceAll

noncomputable section

namespace Cert.FiniteEntries

open Idealize.ShloMosaic

/-- The rank-0 shape has one index. -/
instance : Subsingleton (⟨0, ![]⟩ : Shape).Idx := ⟨fun a b => funext fun d => d.elim0⟩

/-- The f32 pattern `0x7F800000` (exponent all ones, significand zero, sign 0) denotes `+∞`. -/
theorem ofBits_inf : Ideal.ofBits .f32 0x7F800000#32 = ⊤ := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | top => simp [Ideal.cmp] at h
  | coe r => exact ⟨r, rfl⟩

/-- One conjunct of the precondition, `jnp.all (|a| < +∞)`, read back: every entry of `a` is a real number. -/
theorem real_of_all {s : Shape} {axes : List (Fin s.rank)} (a : FVec Ideal s .f32)
    (hb : (⟨0, ![]⟩ : Shape).BroadcastsInDim s ![]) (hr : s.ReducesTo axes ⟨0, ![]⟩)
    (hu : 0 < (⟨0, ![]⟩ : Shape).numel) (init : IVec ⟨0, ![]⟩ 1) (j : (⟨0, ![]⟩ : Shape).Idx)
    (e : Host.reduce IntOp.andi
      (cmpf .olt (Host.absf a) (broadcastInDim s ![] hb (constant (F := Ideal) ⟨0, ![]⟩ .f32 0x7F800000#32))) init hr hu j = 1#1)
    (i : s.Idx) : ∃ r : ℝ, a i = r :=
  real_of_abs_lt_inf (a i) (Host.reduce_andi_all _ init hr hu j e i)

variable [Cert.Pre_finite_inputs.Facts]

open Cert.Pre_finite_inputs in
/-- The precondition gives real entries in all seven arrays. -/
theorem real_of_pre (a0 : FVec Ideal S64x512x768 .f32) (a1 : FVec Ideal S768x512 .f32) (a2 : FVec Ideal S512 .f32)
    (a3 : FVec Ideal S512x512 .f32) (a4 : FVec Ideal S512 .f32) (a5 : FVec Ideal S512x768 .f32) (a6 : FVec Ideal S768 .f32)
    (h : Cert.Pre_finite_inputs.fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5, real_of_all a6 _ _ _ _ _ e6⟩

end Cert.FiniteEntries

end
-- ==== Proof.MeanDense.lean ====
/-
  The algebra that joins the two programs, on one batch row.

  A dense layer with relu sends a row vector `y` to `max (y · W + b) 0`.  The kernel first averages the 512 node
  rows `X n` of a batch element and then applies three such layers to the averaged row.  The reference applies each
  layer's linear map to every node row, averages the 512 products, adds the bias and applies relu; its second and third
  layers receive rows that no longer depend on the node.

  Over the reals the two agree: the mean is linear, so it commutes with `· W`
      (∑ n, ∑ k, Y n k * W k h) / 512 = ∑ k, ((∑ n, Y n k) / 512) * W k h,
  and the mean of 512 equal rows is the row.  Both facts use distributivity, which fails on the extended reals at the
  infinities, so they are proved for entries that are real numbers: the real-valued layer `denseR` is the common value,
  and each side is shown to be its coercion.
-/
import Idealize.ShloMosaic.PureOps.Ideal
import Idealize.ShloMosaic.PureOps.Ideal.Laws

noncomputable section

namespace Cert.MeanDense

open Idealize.ShloMosaic

/-! ## Coercion of the reals into the extended reals -/

/-- The coercion commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with `max`. -/
theorem coe_max (a b : ℝ) : ((max a b : ℝ) : EReal) = max (a : EReal) (b : EReal) :=
  EReal.coe_strictMono.monotone.map_max

/-- The f32 pattern of `512.0` (sign 0, exponent 136, significand 0) denotes the real number 512 = 2⁹. -/
theorem ofBits_512 : Ideal.ofBits .f32 0x44000000#32 = ((512 : ℝ) : EReal) := by
  simp [Ideal.ofBits, Ideal.ieee, -EReal.coe_mul]; norm_num

/-! ## The two spellings of a layer, on the extended reals -/

variable {κ η : Type} [Fintype κ] [Fintype η]

/-- `max (y · W + b) 0`: a dense layer with relu on a row vector. The zero is the f32 pattern both programs spell. -/
def dense (y : κ → EReal) (W : κ → η → EReal) (b : η → EReal) : η → EReal :=
  fun h => max ((∑ k, y k * W k h) + b h) (Ideal.ofBits .f32 0x00000000#32)

/-- The mean of 512 rows, entry by entry: the sum divided by the f32 `512.0`. -/
def meanRows (X : Fin 512 → κ → EReal) : κ → EReal :=
  fun k => Ideal.div (∑ n, X n k) (Ideal.ofBits .f32 0x44000000#32)

/-- The layer with the linear map applied to each of the 512 rows and the mean taken afterwards, as a host program
    sums: from the zero initial value, then divided by `512.0`, then the bias and relu. -/
def denseMean (Y : Fin 512 → κ → EReal) (W : κ → η → EReal) (b : η → EReal) : η → EReal :=
  fun h => max (Ideal.div (Ideal.ofBits .f32 0x00000000#32 + ∑ n, ∑ k, Y n k * W k h) (Ideal.ofBits .f32 0x44000000#32) + b h)
    (Ideal.ofBits .f32 0x00000000#32)

/-! ## The same layer on the reals -/

/-- `max (y · W + b) 0` on the reals. -/
def denseR (y : κ → ℝ) (W : κ → η → ℝ) (b : η → ℝ) : η → ℝ :=
  fun h => max ((∑ k, y k * W k h) + b h) 0

/-- The mean of 512 real rows. -/
def meanR (X : Fin 512 → κ → ℝ) : κ → ℝ := fun k => (∑ n, X n k) * (1 / 512)

/-- The mean of 512 copies of a row is the row. -/
theorem meanR_const (y : κ → ℝ) : meanR (fun _ => y) = y := by
  funext k
  simp only [meanR, Finset.sum_const, Finset.card_univ, Fintype.card_fin, nsmul_eq_mul]
  push_cast; ring

/-- On real entries the layer is the coercion of the real layer. -/
theorem dense_coe (y : κ → ℝ) (W : κ → η → ℝ) (b : η → ℝ) :
    dense (fun k => (y k : EReal)) (fun k h => (W k h : EReal)) (fun h => (b h : EReal))
      = fun h => ((denseR y W b h : ℝ) : EReal) := by
  funext h
  simp only [dense, denseR, Ideal.ofBits_zero_f32, coe_max, EReal.coe_add, coe_sum, EReal.coe_mul, EReal.coe_zero]

/-- On real entries the mean of the rows is the coercion of the real mean. -/
theorem meanRows_coe (X : Fin 512 → κ → ℝ) :
    meanRows (fun n k => (X n k : EReal)) = fun k => ((meanR X k : ℝ) : EReal) := by
  funext k
  simp only [meanRows, meanR, ofBits_512]
  rw [Ideal.div_coe (by norm_num : (512 : ℝ) ≠ 0), EReal.coe_mul, coe_sum]

/-- LINEARITY OF THE MEAN. On real entries, the layer that averages after the linear map is the real layer applied to the
    averaged row: `(∑ n, ∑ k, Y n k * W k h) / 512 = ∑ k, ((∑ n, Y n k) / 512) * W k h`. -/
theorem denseMean_coe (Y : Fin 512 → κ → ℝ) (W : κ → η → ℝ) (b : η → ℝ) :
    denseMean (fun n k => (Y n k : EReal)) (fun k h => (W k h : EReal)) (fun h => (b h : EReal))
      = fun h => ((denseR (meanR Y) W b h : ℝ) : EReal) := by
  funext h
  have key : (∑ n, ∑ k, Y n k * W k h) * (1 / 512) = ∑ k, (∑ n, Y n k) * (1 / 512) * W k h := by
    rw [Finset.sum_comm, Finset.sum_mul]
    refine Finset.sum_congr rfl fun k _ => ?_
    rw [← Finset.sum_mul]; ring
  simp only [denseMean, denseR, meanR, Ideal.ofBits_zero_f32, ofBits_512, zero_add]
  rw [Ideal.div_coe (by norm_num : (512 : ℝ) ≠ 0), ← key]
  simp only [coe_max, EReal.coe_add, coe_sum, EReal.coe_mul, EReal.coe_zero]

/-! ## One batch row through the three layers -/

/-- The kernel's row: average the 512 node rows, then three dense layers. -/
def kerRow (X : Fin 512 → Fin 768 → EReal) (W1 : Fin 768 → Fin 512 → EReal) (b1 : Fin 512 → EReal)
    (W2 : Fin 512 → Fin 512 → EReal) (b2 : Fin 512 → EReal) (W3 : Fin 512 → Fin 768 → EReal) (b3 : Fin 768 → EReal) :
    Fin 768 → EReal :=
  dense (dense (dense (meanRows X) W1 b1) W2 b2) W3 b3

/-- The reference's row: each layer maps every node row and averages afterwards; the second and third layers see 512
    copies of the previous layer's row. -/
def refRow (X : Fin 512 → Fin 768 → EReal) (W1 : Fin 768 → Fin 512 → EReal) (b1 : Fin 512 → EReal)
    (W2 : Fin 512 → Fin 512 → EReal) (b2 : Fin 512 → EReal) (W3 : Fin 512 → Fin 768 → EReal) (b3 : Fin 768 → EReal) :
    Fin 768 → EReal :=
  denseMean (fun _ => denseMean (fun _ => denseMean X W1 b1) W2 b2) W3 b3

/-- When every entry of the inputs is a real number the two rows are equal. -/
theorem refRow_eq_kerRow (X : Fin 512 → Fin 768 → EReal) (W1 : Fin 768 → Fin 512 → EReal) (b1 : Fin 512 → EReal)
    (W2 : Fin 512 → Fin 512 → EReal) (b2 : Fin 512 → EReal) (W3 : Fin 512 → Fin 768 → EReal) (b3 : Fin 768 → EReal)
    (hX : ∀ n c, ∃ r : ℝ, X n c = r) (hW1 : ∀ c h, ∃ r : ℝ, W1 c h = r) (hb1 : ∀ h, ∃ r : ℝ, b1 h = r)
    (hW2 : ∀ h h', ∃ r : ℝ, W2 h h' = r) (hb2 : ∀ h, ∃ r : ℝ, b2 h = r)
    (hW3 : ∀ h o, ∃ r : ℝ, W3 h o = r) (hb3 : ∀ o, ∃ r : ℝ, b3 o = r) :
    refRow X W1 b1 W2 b2 W3 b3 = kerRow X W1 b1 W2 b2 W3 b3 := by
  choose X' hX' using hX
  choose W1' hW1' using hW1
  choose b1' hb1' using hb1
  choose W2' hW2' using hW2
  choose b2' hb2' using hb2
  choose W3' hW3' using hW3
  choose b3' hb3' using hb3
  obtain rfl : X = fun n c => (X' n c : EReal) := funext fun n => funext fun c => hX' n c
  obtain rfl : W1 = fun c h => (W1' c h : EReal) := funext fun c => funext fun h => hW1' c h
  obtain rfl : b1 = fun h => (b1' h : EReal) := funext hb1'
  obtain rfl : W2 = fun c h => (W2' c h : EReal) := funext fun c => funext fun h => hW2' c h
  obtain rfl : b2 = fun h => (b2' h : EReal) := funext hb2'
  obtain rfl : W3 = fun c h => (W3' c h : EReal) := funext fun c => funext fun h => hW3' c h
  obtain rfl : b3 = fun h => (b3' h : EReal) := funext hb3'
  -- the three real rows both sides pass through
  have r1 := denseMean_coe X' W1' b1'
  have r2 := denseMean_coe (fun _ => denseR (meanR X') W1' b1') W2' b2'
  rw [meanR_const] at r2
  have r3 := denseMean_coe (fun _ => denseR (denseR (meanR X') W1' b1') W2' b2') W3' b3'
  rw [meanR_const] at r3
  have k1 := dense_coe (meanR X') W1' b1'
  have k2 := dense_coe (denseR (meanR X') W1' b1') W2' b2'
  have k3 := dense_coe (denseR (denseR (meanR X') W1' b1') W2' b2') W3' b3'
  unfold refRow kerRow
  rw [r1, r2, r3, meanRows_coe, k1, k2, k3]

end Cert.MeanDense

end
-- ==== Proof.RefRow.lean ====
/-
  The reference, read one batch row at a time.

  Each of the reference's three layers is: a `dot_general` of every node row with the weights, the sum over the 512
  nodes from a zero initial value, the division by 512, the bias, the broadcast back over the nodes and relu.  Read at
  an index `(b, n, h)` that is `denseMean` of the layer's input rows at batch element `b`, at `h` — whatever `n` is:
  the layer's output is the same at every node.  The result is the first 128 nodes of the third layer.
-/
import proofs.«126272_j90683939487935_2_alg».proof.Proof.Gen.ReferenceIdeal.Read
import proofs.«126272_j90683939487935_2_alg».proof.Proof.MeanDense

noncomputable section

namespace Cert.RefRow

open Cert.ReferenceIdeal Cert.ReferenceIdeal.Read Idealize.ShloMosaic Idealize.ShloMosaic.ValueIdx Cert.MeanDense

/-- The first layer at `(b, n, h)`: the mean over the nodes of `x[b, ·, :] · W1`, plus `b1`, under relu. -/
theorem layer1 (x0 : FVec Ideal S64x512x768 .f32) (x1 : FVec Ideal S768x512 .f32) (x2 : FVec Ideal S512 .f32) (b : Fin 64) (n : Fin 512) (h : Fin 512) :
    val_main_v9 (F := Ideal) x0 x1 x2 (ix3 b n h)
      = denseMean (fun n c => x0 (ix3 b n c)) (fun c h => x1 (ix2 c h)) (fun h => x2 (ix1 h)) h := by
  rw [val_main_v9_apply, val_main_v8_apply, val_main_v7_apply, val_main_v4_apply, val_main_v2_apply, val_main_v1_apply,
    val_main_v3_apply, val_main_cst_0_apply, val_main_cst_apply, val_main_v6_apply, val_main_v5_apply,
    val_main_call0_v0_apply, val_main_call0_cst_apply]
  simp only [val_main_v0_apply]
  have eL : ∀ k k', lidx_main_v0 (idx_main_v1 (idx_main_v2 (idx_main_v8 (ix3 b n h))) k) k' = ix3 b k k' :=
    fun k k' => funext fun a => Fin.ext (by match a with | ⟨0, _⟩ => rfl | ⟨1, _⟩ => rfl | ⟨2, _⟩ => rfl)
  have eR : ∀ k k', ridx_main_v0 (idx_main_v1 (idx_main_v2 (idx_main_v8 (ix3 b n h))) k) k' = ix2 k' h :=
    fun k k' => funext fun a => Fin.ext (by match a with | ⟨0, _⟩ => rfl | ⟨1, _⟩ => rfl)
  have eB : idx_main_v5 (idx_main_v6 (idx_main_v8 (ix3 b n h))) = ix1 h :=
    funext fun a => Fin.ext (by match a with | ⟨0, _⟩ => rfl)
  simp only [eL, eR, eB]
  rfl

/-- The second layer at `(b, n, h)`: the same of the first layer's rows. -/
theorem layer2 (x0 : FVec Ideal S64x512x768 .f32) (x1 : FVec Ideal S768x512 .f32) (x2 : FVec Ideal S512 .f32) (x3 : FVec Ideal S512x512 .f32) (x4 : FVec Ideal S512 .f32) (b : Fin 64) (n : Fin 512) (h : Fin 512) :
    val_main_v19 (F := Ideal) x0 x1 x2 x3 x4 (ix3 b n h)
      = denseMean (fun n k => val_main_v9 (F := Ideal) x0 x1 x2 (ix3 b n k)) (fun k h => x3 (ix2 k h)) (fun h => x4 (ix1 h)) h := by
  rw [val_main_v19_apply, val_main_v18_apply, val_main_v17_apply, val_main_v14_apply, val_main_v12_apply, val_main_v11_apply,
    val_main_v13_apply, val_main_cst_2_apply, val_main_cst_1_apply, val_main_v16_apply, val_main_v15_apply,
    val_main_call1_v0_apply, val_main_call1_cst_apply]
  simp only [val_main_v10_apply]
  have eL : ∀ k k', lidx_main_v10 (idx_main_v11 (idx_main_v12 (idx_main_v18 (ix3 b n h))) k) k' = ix3 b k k' :=
    fun k k' => funext fun a => Fin.ext (by match a with | ⟨0, _⟩ => rfl | ⟨1, _⟩ => rfl | ⟨2, _⟩ => rfl)
  have eR : ∀ k k', ridx_main_v10 (idx_main_v11 (idx_main_v12 (idx_main_v18 (ix3 b n h))) k) k' = ix2 k' h :=
    fun k k' => funext fun a => Fin.ext (by match a with | ⟨0, _⟩ => rfl | ⟨1, _⟩ => rfl)
  have eB : idx_main_v15 (idx_main_v16 (idx_main_v18 (ix3 b n h))) = ix1 h :=
    funext fun a => Fin.ext (by match a with | ⟨0, _⟩ => rfl)
  simp only [eL, eR, eB]
  rfl

/-- The third layer at `(b, n, o)`: the same of the second layer's rows. -/
theorem layer3 (x0 : FVec Ideal S64x512x768 .f32) (x1 : FVec Ideal S768x512 .f32) (x2 : FVec Ideal S512 .f32) (x3 : FVec Ideal S512x512 .f32) (x4 : FVec Ideal S512 .f32) (x5 : FVec Ideal S512x768 .f32) (x6 : FVec Ideal S768 .f32) (b : Fin 64) (n : Fin 512) (o : Fin 768) :
    val_main_v29 (F := Ideal) x0 x1 x2 x3 x4 x5 x6 (ix3 b n o)
      = denseMean (fun n k => val_main_v19 (F := Ideal) x0 x1 x2 x3 x4 (ix3 b n k)) (fun k o => x5 (ix2 k o)) (fun o => x6 (ix1 o)) o := by
  rw [val_main_v29_apply, val_main_v28_apply, val_main_v27_apply, val_main_v24_apply, val_main_v22_apply, val_main_v21_apply,
    val_main_v23_apply, val_main_cst_4_apply, val_main_cst_3_apply, val_main_v26_apply, val_main_v25_apply,
    val_main_call2_v0_apply, val_main_call2_cst_apply]
  simp only [val_main_v20_apply]
  have eL : ∀ k k', lidx_main_v20 (idx_main_v21 (idx_main_v22 (idx_main_v28 (ix3 b n o))) k) k' = ix3 b k k' :=
    fun k k' => funext fun a => Fin.ext (by match a with | ⟨0, _⟩ => rfl | ⟨1, _⟩ => rfl | ⟨2, _⟩ => rfl)
  have eR : ∀ k k', ridx_main_v20 (idx_main_v21 (idx_main_v22 (idx_main_v28 (ix3 b n o))) k) k' = ix2 k' o :=
    fun k k' => funext fun a => Fin.ext (by match a with | ⟨0, _⟩ => rfl | ⟨1, _⟩ => rfl)
  have eB : idx_main_v25 (idx_main_v26 (idx_main_v28 (ix3 b n o))) = ix1 o :=
    funext fun a => Fin.ext (by match a with | ⟨0, _⟩ => rfl)
  simp only [eL, eR, eB]
  rfl

/-- THE REFERENCE'S RESULT at `(b, n, o)`, `n < 128`: the reference's row of batch element `b` at `o`. -/
theorem result_apply (x0 : FVec Ideal S64x512x768 .f32) (x1 : FVec Ideal S768x512 .f32) (x2 : FVec Ideal S512 .f32) (x3 : FVec Ideal S512x512 .f32) (x4 : FVec Ideal S512 .f32) (x5 : FVec Ideal S512x768 .f32) (x6 : FVec Ideal S768 .f32) (b : Fin 64) (n : Fin 128) (o : Fin 768) :
    val_main_v30 (F := Ideal) x0 x1 x2 x3 x4 x5 x6 (ix3 b n o)
      = refRow (fun n c => x0 (ix3 b n c)) (fun c h => x1 (ix2 c h)) (fun h => x2 (ix1 h)) (fun k h => x3 (ix2 k h))
          (fun h => x4 (ix1 h)) (fun k o => x5 (ix2 k o)) (fun o => x6 (ix1 o)) o := by
  rw [val_main_v30_apply]
  have e : idx_main_v30 (ix3 b n o) = ix3 b (⟨n.val, by have := n.isLt; omega⟩ : Fin 512) o :=
    funext fun a => Fin.ext (by match a with | ⟨0, _⟩ => rfl | ⟨1, _⟩ => rfl | ⟨2, _⟩ => rfl)
  rw [e, layer3]
  simp only [layer2, layer1]
  rfl

end Cert.RefRow

end
-- ==== Proof.ResultSpec.lean ====
/-
  The result both programs compute, as one function of the seven argument arrays.

  At `(b, n, o)` the output holds the kernel's row (`MeanDense.kerRow`) of batch element `b` at `o`: the mean of the
  512 node rows `x[b, ·, :]` sent through the three dense layers.  It does not depend on the node position `n`.
-/
import proofs.«126272_j90683939487935_2_alg».proof.Proof.MeanDense
import Idealize.ShloMosaic.Lib.ValueIdx

noncomputable section

namespace Cert.ResultSpec

open Idealize.ShloMosaic Idealize.ShloMosaic.ValueIdx Cert.MeanDense

/-- The output array `[64, 128, 768]` as a function of `x [64, 512, 768]`, `W1 [768, 512]`, `b1 [512]`, `W2 [512, 512]`,
    `b2 [512]`, `W3 [512, 768]`, `b3 [768]`. -/
def result (x : (⟨3, ![64, 512, 768]⟩ : Shape).Idx → EReal) (w1 : (⟨2, ![768, 512]⟩ : Shape).Idx → EReal)
    (b1 : (⟨1, ![512]⟩ : Shape).Idx → EReal) (w2 : (⟨2, ![512, 512]⟩ : Shape).Idx → EReal)
    (b2 : (⟨1, ![512]⟩ : Shape).Idx → EReal) (w3 : (⟨2, ![512, 768]⟩ : Shape).Idx → EReal)
    (b3 : (⟨1, ![768]⟩ : Shape).Idx → EReal) : (⟨3, ![64, 128, 768]⟩ : Shape).Idx → EReal :=
  fun i => kerRow (fun n c => x (ix3 (i 0) n c)) (fun c h => w1 (ix2 c h)) (fun h => b1 (ix1 h)) (fun k h => w2 (ix2 k h))
    (fun h => b2 (ix1 h)) (fun k o => w3 (ix2 k o)) (fun o => b3 (ix1 o)) (i 2)

/-- The kernel's row depends on its inputs entry by entry. -/
theorem kerRow_congr {X X' : Fin 512 → Fin 768 → EReal} {W1 W1' : Fin 768 → Fin 512 → EReal} {b1 b1' : Fin 512 → EReal}
    {W2 W2' : Fin 512 → Fin 512 → EReal} {b2 b2' : Fin 512 → EReal} {W3 W3' : Fin 512 → Fin 768 → EReal}
    {b3 b3' : Fin 768 → EReal} {o o' : Fin 768}
    (hX : ∀ n c, X n c = X' n c) (hW1 : ∀ c h, W1 c h = W1' c h) (hb1 : ∀ h, b1 h = b1' h)
    (hW2 : ∀ k h, W2 k h = W2' k h) (hb2 : ∀ h, b2 h = b2' h) (hW3 : ∀ k q, W3 k q = W3' k q) (hb3 : ∀ q, b3 q = b3' q)
    (ho : o = o') :
    kerRow X W1 b1 W2 b2 W3 b3 o = kerRow X' W1' b1' W2' b2' W3' b3' o' := by
  obtain rfl : X = X' := funext fun n => funext fun c => hX n c
  obtain rfl : W1 = W1' := funext fun c => funext fun h => hW1 c h
  obtain rfl : b1 = b1' := funext hb1
  obtain rfl : W2 = W2' := funext fun c => funext fun h => hW2 c h
  obtain rfl : b2 = b2' := funext hb2
  obtain rfl : W3 = W3' := funext fun c => funext fun h => hW3 c h
  obtain rfl : b3 = b3' := funext hb3
  rw [ho]

end Cert.ResultSpec

end
-- ==== Proof.RefArray.lean ====
/-
  The reference's whole result array is the specification, when every argument entry is a real number.

  Index by index the reference's result is its row `refRow` of the batch element (RefRow), and on real entries that
  row is the kernel's (MeanDense: the mean commutes with the linear map, and the mean of equal rows is the row).
-/
import proofs.«126272_j90683939487935_2_alg».proof.Proof.RefRow
import proofs.«126272_j90683939487935_2_alg».proof.Proof.ResultSpec

noncomputable section

namespace Cert.RefArray

open Cert.ReferenceIdeal Cert.ReferenceIdeal.Read Idealize.ShloMosaic Idealize.ShloMosaic.ValueIdx Cert.MeanDense Cert.ResultSpec

theorem ref_eq_result (x0 : FVec Ideal S64x512x768 .f32) (x1 : FVec Ideal S768x512 .f32) (x2 : FVec Ideal S512 .f32) (x3 : FVec Ideal S512x512 .f32) (x4 : FVec Ideal S512 .f32) (x5 : FVec Ideal S512x768 .f32) (x6 : FVec Ideal S768 .f32)
    (h0 : ∀ i, ∃ r : ℝ, x0 i = r) (h1 : ∀ i, ∃ r : ℝ, x1 i = r) (h2 : ∀ i, ∃ r : ℝ, x2 i = r) (h3 : ∀ i, ∃ r : ℝ, x3 i = r)
    (h4 : ∀ i, ∃ r : ℝ, x4 i = r) (h5 : ∀ i, ∃ r : ℝ, x5 i = r) (h6 : ∀ i, ∃ r : ℝ, x6 i = r) :
    val_main_v30 (F := Ideal) x0 x1 x2 x3 x4 x5 x6 = result x0 x1 x2 x3 x4 x5 x6 := by
  funext i
  obtain ⟨b, n, o, rfl⟩ : ∃ (b : Fin 64) (n : Fin 128) (o : Fin 768), i = ix3 b n o := ⟨i 0, i 1, i 2, eq_ix3 i⟩
  rw [Cert.RefRow.result_apply]
  exact congrFun (refRow_eq_kerRow _ _ _ _ _ _ _ (fun n c => h0 _) (fun c h => h1 _) (fun h => h2 _) (fun k h => h3 _)
    (fun h => h4 _) (fun k o => h5 _) (fun o => h6 _)) o

end Cert.RefArray

end
-- ==== Proof.KernelRow.lean ====
/-
  The kernel's body, read one batch row at a time.

  At a grid point the body holds a block of four batch elements.  It sums each element's 512 node rows and divides by
  512, sends the averaged row through three dense layers with relu (each a matrix product into a zero accumulator, a
  bias laid as one row and copied down the four rows, and a maximum with zero), and copies the resulting row to all
  128 node positions of the output block.  So the body's value at `(p, n, o)` is the kernel's row `kerRow` of batch
  element `p` of the block, at `o`, whatever `n` is.
-/
import proofs.«126272_j90683939487935_2_alg».proof.Proof.Gen.KernelIdeal.Skeleton
import proofs.«126272_j90683939487935_2_alg».proof.Proof.MeanDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx Cert.MeanDense

/-! ## The operations that are not pointwise, each at an index -/

/-- The sum over the node axis divided by 512, at `(p, c)`: the mean of the block's rows `x[p, ·, c]`. -/
theorem mean_apply (x : FVec Ideal S4x512x768 .f32) (h : S4x512x768.Reduces [1] S4x768) (p : Fin 4) (c : Fin 768) :
    divf (multiReduction .add [1] S4x768 x 0x00000000#32 h (.inl rfl) rfl)
        (broadcast S4x768 (Scalar.ofBits (F := Ideal) .f32 0x44000000#32)) (ix2 p c)
      = meanRows (fun n c => x (ix3 p n c)) c := by
  rw [divf_apply, broadcast_apply]
  refine congrArg (fun s => Ideal.div s (Ideal.ofBits .f32 0x44000000#32)) ?_
  refine (Ideal.multiReduction_add_single x 0x00000000#32 h (.inl rfl) rfl (ix2 p c)).trans ?_
  refine Finset.sum_congr rfl fun k _ => congrArg x ?_
  exact funext fun a => Fin.ext (by match a with | ⟨0, _⟩ => rfl | ⟨1, _⟩ => rfl | ⟨2, _⟩ => rfl)

/-- Product 1: the left operand is read at the output's row, the right operand at the output's column. -/
theorem lhsRow1 (i : S4x512.Idx) (q : dot_S4x768_S768x512_S4x512_1_0_0_1_n_n.contr.Idx) : (dot_S4x768_S768x512_S4x512_1_0_0_1_n_n.lhsIdx i q 0).val = (i 0).val := by
  unfold DotDims.lhsIdx
  rw [dif_neg (show ¬(0 : Fin S4x768.rank) ∈ dot_S4x768_S768x512_S4x512_1_0_0_1_n_n.lhsBatch by decide), dif_pos (show (0 : Fin S4x768.rank) ∈ dot_S4x768_S768x512_S4x512_1_0_0_1_n_n.lhsNonContracting by decide)]
  rfl
theorem rhsCol1 (i : S4x512.Idx) (q : dot_S4x768_S768x512_S4x512_1_0_0_1_n_n.contr.Idx) : (dot_S4x768_S768x512_S4x512_1_0_0_1_n_n.rhsIdx i q 1).val = (i 1).val := by
  unfold DotDims.rhsIdx
  rw [dif_neg (show ¬(1 : Fin S768x512.rank) ∈ dot_S4x768_S768x512_S4x512_1_0_0_1_n_n.rhsBatch by decide), dif_pos (show (1 : Fin S768x512.rank) ∈ dot_S4x768_S768x512_S4x512_1_0_0_1_n_n.rhsNonContracting by decide)]
  rfl

/-- Product 2: the left operand is read at the output's row, the right operand at the output's column. -/
theorem lhsRow2 (i : S4x512.Idx) (q : dot_S4x512_S512x512_S4x512_1_0_0_1_n_n.contr.Idx) : (dot_S4x512_S512x512_S4x512_1_0_0_1_n_n.lhsIdx i q 0).val = (i 0).val := by
  unfold DotDims.lhsIdx
  rw [dif_neg (show ¬(0 : Fin S4x512.rank) ∈ dot_S4x512_S512x512_S4x512_1_0_0_1_n_n.lhsBatch by decide), dif_pos (show (0 : Fin S4x512.rank) ∈ dot_S4x512_S512x512_S4x512_1_0_0_1_n_n.lhsNonContracting by decide)]
  rfl
theorem rhsCol2 (i : S4x512.Idx) (q : dot_S4x512_S512x512_S4x512_1_0_0_1_n_n.contr.Idx) : (dot_S4x512_S512x512_S4x512_1_0_0_1_n_n.rhsIdx i q 1).val = (i 1).val := by
  unfold DotDims.rhsIdx
  rw [dif_neg (show ¬(1 : Fin S512x512.rank) ∈ dot_S4x512_S512x512_S4x512_1_0_0_1_n_n.rhsBatch by decide), dif_pos (show (1 : Fin S512x512.rank) ∈ dot_S4x512_S512x512_S4x512_1_0_0_1_n_n.rhsNonContracting by decide)]
  rfl

/-- Product 3: the left operand is read at the output's row, the right operand at the output's column. -/
theorem lhsRow3 (i : S4x768.Idx) (q : dot_S4x512_S512x768_S4x768_1_0_0_1_n_n.contr.Idx) : (dot_S4x512_S512x768_S4x768_1_0_0_1_n_n.lhsIdx i q 0).val = (i 0).val := by
  unfold DotDims.lhsIdx
  rw [dif_neg (show ¬(0 : Fin S4x512.rank) ∈ dot_S4x512_S512x768_S4x768_1_0_0_1_n_n.lhsBatch by decide), dif_pos (show (0 : Fin S4x512.rank) ∈ dot_S4x512_S512x768_S4x768_1_0_0_1_n_n.lhsNonContracting by decide)]
  rfl
theorem rhsCol3 (i : S4x768.Idx) (q : dot_S4x512_S512x768_S4x768_1_0_0_1_n_n.contr.Idx) : (dot_S4x512_S512x768_S4x768_1_0_0_1_n_n.rhsIdx i q 1).val = (i 1).val := by
  unfold DotDims.rhsIdx
  rw [dif_neg (show ¬(1 : Fin S512x768.rank) ∈ dot_S4x512_S512x768_S4x768_1_0_0_1_n_n.rhsBatch by decide), dif_pos (show (1 : Fin S512x768.rank) ∈ dot_S4x512_S512x768_S4x768_1_0_0_1_n_n.rhsNonContracting by decide)]
  rfl

/-- The product `[4, 768] · [768, 512]` into a zero accumulator, at `(p, q)`: the sum over the contracted index. -/
theorem matmul1_apply (l : FVec Ideal S4x768 .bf16) (r : FVec Ideal S768x512 .bf16) (p : Fin 4) (q : Fin 512) :
    matmul dot_S4x768_S768x512_S4x512_1_0_0_1_n_n none l r (constant (F := Ideal) S4x512 .f32 0x00000000#32) (ix2 p q)
      = ∑ k : Fin 768, l (ix2 p k) * r (ix2 k q) := by
  simp only [matmul]
  rw [Ideal.matmul_constant_zero_apply, ← Equiv.sum_comp (contrEquiv1 dot_S4x768_S768x512_S4x512_1_0_0_1_n_n 768 rfl rfl).symm]
  refine Finset.sum_congr rfl fun k _ => ?_
  have hk := contrEquiv1_symm_val dot_S4x768_S768x512_S4x512_1_0_0_1_n_n 768 rfl rfl k
  have el : dot_S4x768_S768x512_S4x512_1_0_0_1_n_n.lhsIdx (ix2 p q) ((contrEquiv1 dot_S4x768_S768x512_S4x512_1_0_0_1_n_n 768 rfl rfl).symm k) = ix2 p k := funext fun a => Fin.ext (by
    match a with
    | ⟨0, _⟩ => exact lhsRow1 _ _
    | ⟨1, _⟩ => exact (dot_S4x768_S768x512_S4x512_1_0_0_1_n_n.lhsIdx_val_of_single rfl _ _).trans hk)
  have er : dot_S4x768_S768x512_S4x512_1_0_0_1_n_n.rhsIdx (ix2 p q) ((contrEquiv1 dot_S4x768_S768x512_S4x512_1_0_0_1_n_n 768 rfl rfl).symm k) = ix2 k q := funext fun a => Fin.ext (by
    match a with
    | ⟨0, _⟩ => exact (dot_S4x768_S768x512_S4x512_1_0_0_1_n_n.rhsIdx_val_of_single rfl _ _).trans hk
    | ⟨1, _⟩ => exact rhsCol1 _ _)
  rw [el, er]

/-- The product `[4, 512] · [512, 512]` into a zero accumulator, at `(p, q)`: the sum over the contracted index. -/
theorem matmul2_apply (l : FVec Ideal S4x512 .bf16) (r : FVec Ideal S512x512 .bf16) (p : Fin 4) (q : Fin 512) :
    matmul dot_S4x512_S512x512_S4x512_1_0_0_1_n_n none l r (constant (F := Ideal) S4x512 .f32 0x00000000#32) (ix2 p q)
      = ∑ k : Fin 512, l (ix2 p k) * r (ix2 k q) := by
  simp only [matmul]
  rw [Ideal.matmul_constant_zero_apply, ← Equiv.sum_comp (contrEquiv1 dot_S4x512_S512x512_S4x512_1_0_0_1_n_n 512 rfl rfl).symm]
  refine Finset.sum_congr rfl fun k _ => ?_
  have hk := contrEquiv1_symm_val dot_S4x512_S512x512_S4x512_1_0_0_1_n_n 512 rfl rfl k
  have el : dot_S4x512_S512x512_S4x512_1_0_0_1_n_n.lhsIdx (ix2 p q) ((contrEquiv1 dot_S4x512_S512x512_S4x512_1_0_0_1_n_n 512 rfl rfl).symm k) = ix2 p k := funext fun a => Fin.ext (by
    match a with
    | ⟨0, _⟩ => exact lhsRow2 _ _
    | ⟨1, _⟩ => exact (dot_S4x512_S512x512_S4x512_1_0_0_1_n_n.lhsIdx_val_of_single rfl _ _).trans hk)
  have er : dot_S4x512_S512x512_S4x512_1_0_0_1_n_n.rhsIdx (ix2 p q) ((contrEquiv1 dot_S4x512_S512x512_S4x512_1_0_0_1_n_n 512 rfl rfl).symm k) = ix2 k q := funext fun a => Fin.ext (by
    match a with
    | ⟨0, _⟩ => exact (dot_S4x512_S512x512_S4x512_1_0_0_1_n_n.rhsIdx_val_of_single rfl _ _).trans hk
    | ⟨1, _⟩ => exact rhsCol2 _ _)
  rw [el, er]

/-- The product `[4, 512] · [512, 768]` into a zero accumulator, at `(p, q)`: the sum over the contracted index. -/
theorem matmul3_apply (l : FVec Ideal S4x512 .bf16) (r : FVec Ideal S512x768 .bf16) (p : Fin 4) (q : Fin 768) :
    matmul dot_S4x512_S512x768_S4x768_1_0_0_1_n_n none l r (constant (F := Ideal) S4x768 .f32 0x00000000#32) (ix2 p q)
      = ∑ k : Fin 512, l (ix2 p k) * r (ix2 k q) := by
  simp only [matmul]
  rw [Ideal.matmul_constant_zero_apply, ← Equiv.sum_comp (contrEquiv1 dot_S4x512_S512x768_S4x768_1_0_0_1_n_n 512 rfl rfl).symm]
  refine Finset.sum_congr rfl fun k _ => ?_
  have hk := contrEquiv1_symm_val dot_S4x512_S512x768_S4x768_1_0_0_1_n_n 512 rfl rfl k
  have el : dot_S4x512_S512x768_S4x768_1_0_0_1_n_n.lhsIdx (ix2 p q) ((contrEquiv1 dot_S4x512_S512x768_S4x768_1_0_0_1_n_n 512 rfl rfl).symm k) = ix2 p k := funext fun a => Fin.ext (by
    match a with
    | ⟨0, _⟩ => exact lhsRow3 _ _
    | ⟨1, _⟩ => exact (dot_S4x512_S512x768_S4x768_1_0_0_1_n_n.lhsIdx_val_of_single rfl _ _).trans hk)
  have er : dot_S4x512_S512x768_S4x768_1_0_0_1_n_n.rhsIdx (ix2 p q) ((contrEquiv1 dot_S4x512_S512x768_S4x768_1_0_0_1_n_n 512 rfl rfl).symm k) = ix2 k q := funext fun a => Fin.ext (by
    match a with
    | ⟨0, _⟩ => exact (dot_S4x512_S512x768_S4x768_1_0_0_1_n_n.rhsIdx_val_of_single rfl _ _).trans hk
    | ⟨1, _⟩ => exact rhsCol3 _ _)
  rw [el, er]

/-- A vector laid as one row and copied down `a` rows reads, at `(p, q)`, the vector at `q`. -/
theorem biasRow_apply {a b : ℕ} {α : Type} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) := by
  rw [broadcastTo_1b_ab_apply, shapeCast_a_1a_apply]

/-- The `[4, 768]` rows given a unit node axis and copied to all 128 node positions read, at `(p, n, o)`, row `p` at `o`. -/
theorem spread_apply {α : Type} (v : S4x768.Idx → α) (h1 : S4x768.ShapeCasts S4x1x768) (h2 : S4x1x768.ShapeCasts S4x1x768)
    (h3 : S4x1x768.Broadcasts S4x128x768) (p : Fin 4) (n : Fin 128) (o : Fin 768) :
    broadcastTo S4x128x768 (shapeCast S4x1x768 (shapeCast S4x1x768 v h1) h2) h3 (ix3 p n o) = v (ix2 p o) := by
  rw [shapeCast_self]
  refine (broadcastTo_apply _ h3 (ix3 p n o) (ix3 p (0 : Fin 1) o) fun ax => ?_).trans ?_
  · match ax with
    | ⟨0, _⟩ => rfl
    | ⟨1, _⟩ => rfl
    | ⟨2, _⟩ => rfl
  · exact shapeCast_apply v h1 (ix3 p (0 : Fin 1) o) (ix2 p o) (by
      rw [Shape.rowMajor_val_two, Shape.rowMajor_val_three]
      show p.val * 768 + o.val = (p.val * 1 + 0) * 768 + o.val
      omega)

/-! ## The three layers, each at an index -/

/-- The first layer at `(p, q)`: `max (y[p, :] · w[:, q] + bias[q]) 0` — the narrowing of the operands to bf16 is the
    identity on the extended reals, and the bias vector is laid as one row and copied down the rows. -/
theorem layer1_apply (y : FVec Ideal S4x768 .f32) (w : Vec Ideal S768x512 .f32) (bv : Vec Ideal S512 .f32)
    (hy : FTy.bits .bf16 < FTy.bits .f32) (hc : S512.ShapeCasts S1x512) (hb : S1x512.Broadcasts S4x512) (p : Fin 4) (q : Fin 512) :
    maximumf (addf (matmul dot_S4x768_S768x512_S4x512_1_0_0_1_n_n none (truncf .bf16 y hy) (truncf .bf16 w hy) (constant (F := Ideal) S4x512 .f32 0x00000000#32))
        (broadcastTo S4x512 (shapeCast S1x512 bv hc) hb)) (broadcast S4x512 (Scalar.ofBits (F := Ideal) .f32 0x00000000#32)) (ix2 p q)
      = dense (fun c => y (ix2 p c)) (fun c h => w (ix2 c h)) (fun h => bv (ix1 h)) q := by
  rw [maximumf_apply, addf_apply, broadcast_apply, matmul1_apply, biasRow_apply]
  rfl

/-- The second layer at `(p, q)`: `max (y[p, :] · w[:, q] + bias[q]) 0` — the narrowing of the operands to bf16 is the
    identity on the extended reals, and the bias vector is laid as one row and copied down the rows. -/
theorem layer2_apply (y : FVec Ideal S4x512 .f32) (w : Vec Ideal S512x512 .f32) (bv : Vec Ideal S512 .f32)
    (hy : FTy.bits .bf16 < FTy.bits .f32) (hc : S512.ShapeCasts S1x512) (hb : S1x512.Broadcasts S4x512) (p : Fin 4) (q : Fin 512) :
    maximumf (addf (matmul dot_S4x512_S512x512_S4x512_1_0_0_1_n_n none (truncf .bf16 y hy) (truncf .bf16 w hy) (constant (F := Ideal) S4x512 .f32 0x00000000#32))
        (broadcastTo S4x512 (shapeCast S1x512 bv hc) hb)) (broadcast S4x512 (Scalar.ofBits (F := Ideal) .f32 0x00000000#32)) (ix2 p q)
      = dense (fun c => y (ix2 p c)) (fun c h => w (ix2 c h)) (fun h => bv (ix1 h)) q := by
  rw [maximumf_apply, addf_apply, broadcast_apply, matmul2_apply, biasRow_apply]
  rfl

/-- The third layer at `(p, q)`: `max (y[p, :] · w[:, q] + bias[q]) 0` — the narrowing of the operands to bf16 is the
    identity on the extended reals, and the bias vector is laid as one row and copied down the rows. -/
theorem layer3_apply (y : FVec Ideal S4x512 .f32) (w : Vec Ideal S512x768 .f32) (bv : Vec Ideal S768 .f32)
    (hy : FTy.bits .bf16 < FTy.bits .f32) (hc : S768.ShapeCasts S1x768) (hb : S1x768.Broadcasts S4x768) (p : Fin 4) (q : Fin 768) :
    maximumf (addf (matmul dot_S4x512_S512x768_S4x768_1_0_0_1_n_n none (truncf .bf16 y hy) (truncf .bf16 w hy) (constant (F := Ideal) S4x768 .f32 0x00000000#32))
        (broadcastTo S4x768 (shapeCast S1x768 bv hc) hb)) (broadcast S4x768 (Scalar.ofBits (F := Ideal) .f32 0x00000000#32)) (ix2 p q)
      = dense (fun c => y (ix2 p c)) (fun c h => w (ix2 c h)) (fun h => bv (ix1 h)) q := by
  rw [maximumf_apply, addf_apply, broadcast_apply, matmul3_apply, biasRow_apply]
  rfl

/-! ## The body's value -/

/-- THE BODY'S VALUE at `(p, n, o)`: the kernel's row of batch element `p` of the block, at `o`. -/
theorem payload_apply (v0 : Vec Ideal S4x512x768 .f32) (v5 : Vec Ideal S768x512 .f32) (v8 : Vec Ideal S512 .f32)
    (v14 : Vec Ideal S512x512 .f32) (v18 : Vec Ideal S512 .f32) (v24 : Vec Ideal S512x768 .f32) (v28 : Vec Ideal S768 .f32)
    (p : Fin 4) (n : Fin 128) (o : Fin 768) :
    k0_pay1 (F := Ideal) v0 v5 v8 v14 v18 v24 v28 (ix3 p n o)
      = kerRow (fun n c => v0 (ix3 p n c)) (fun c h => v5 (ix2 c h)) (fun h => v8 (ix1 h)) (fun k h => v14 (ix2 k h))
          (fun h => v18 (ix1 h)) (fun k o => v24 (ix2 k o)) (fun o => v28 (ix1 o)) o := by
  unfold k0_pay1 kerRow
  refine (spread_apply _ _ _ _ p n o).trans ?_
  refine (layer3_apply _ v24 v28 _ _ _ p o).trans ?_
  refine congrArg (fun y => dense y _ _ o) (funext fun c => ?_)
  refine (layer2_apply _ v14 v18 _ _ _ p c).trans ?_
  refine congrArg (fun y => dense y _ _ c) (funext fun c' => ?_)
  refine (layer1_apply _ v5 v8 _ _ _ p c').trans ?_
  refine congrArg (fun y => dense y _ _ c') (funext fun c'' => ?_)
  exact mean_apply v0 _ p c''

end Cert.KernelRow

end
-- ==== Proof.OutputArray.lean ====
/-
  From the blocks the grid points write to the whole output array.

  The grid has 16 points; point `t` handles batch elements `4 t … 4 t + 3`.  The input block of `x` and the output
  block move together along the batch axis, and every other window is the whole of its array at every point.  So what
  point `t` writes back is block `t` of the specification `ResultSpec.result` of the argument arrays; the 16 output
  blocks tile the `[64, 128, 768]` array (batch element `b` lies in block `b / 4`), hence the array ends holding it.
-/
import proofs.«126272_j90683939487935_2_alg».proof.Proof.Gen.KernelIdeal.Value
import proofs.«126272_j90683939487935_2_alg».proof.Proof.KernelRow
import proofs.«126272_j90683939487935_2_alg».proof.Proof.ResultSpec

set_option maxRecDepth 16384

noncomputable section

namespace Cert.OutputArray

open Cert.KernelIdeal Cert.KernelIdeal.Gen Cert.KernelIdeal.Value Idealize.ShloMosaic Idealize.ShloMosaic.TcCoe Idealize.SL.Sem
open Idealize.ShloMosaic.ValueIdx Cert.MeanDense Cert.ResultSpec
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps, decided over the 16 points: the block of `x` sits where the output's block sits on the batch axis and
    at the origin of the other two; the weights and biases are whole at every point; the output's block index is
    `(t, 0, 0)` with `t ≤ 15`. -/
theorem idx_facts : ∀ t : Fin cfg0.N,
    win0_0.index t (0 : Fin 3) = win0_7.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (1 : Fin 3) = 0 ∧ win0_7.index t (2 : Fin 3) = 0 ∧ win0_7.index t (0 : Fin 3) ≤ 15 :=
  (by decide +kernel : ∀ t : Fin grid0.N, _)

/-- Every one of the 16 batch blocks is some point's. -/
theorem idx_onto : ∀ q : Fin 16, ∃ t : Fin cfg0.N, win0_7.index t = ![q.val, 0, 0] :=
  (by decide +kernel : ∀ q : Fin 16, ∃ t : Fin grid0.N, win0_7.index t = ![q.val, 0, 0])

/-- WHAT POINT `t` WRITES BACK is block `t` of the specification of the argument arrays as the region finds them. -/
theorem flushed_eq (c : Dev nD) (t : Fin cfg0.N) :
    (dats m 0 c).flushed 7 t = ((cfg0.win 7).blk t).view.read (Elt Ideal) (result (V m c main_arg0) (V m c main_arg1) (V m c main_arg2) (V m c main_arg3) (V m c main_arg4) (V m c main_arg5) (V m c main_arg6)) := by
  rw [flushed7]
  unfold out0_7
  rw [View.canon_unit_zero hz3]
  simp only [View.ld_unit_zero (S := S4x512x768) hz3, View.ld_unit_zero (S := S768x512) hz2, View.ld_unit_zero (S := S512) hz1,
    View.ld_unit_zero (S := S512x512) hz2, View.ld_unit_zero (S := S512x768) hz2, View.ld_unit_zero (S := S768) hz1]
  obtain ⟨e00, e01, e02, e10, e11, e20, e30, e31, e40, e50, e51, e60, e71, e72, e7b⟩ := idx_facts t
  funext j
  obtain ⟨p, n, o, rfl⟩ : ∃ (p : Fin 4) (n : Fin 128) (o : Fin 768), j = ix3 p n o := ⟨j 0, j 1, j 2, eq_ix3 j⟩
  show k0_pay1 (iblk m c 0 t) (iblk m c 1 t) (iblk m c 2 t) (iblk m c 3 t) (iblk m c 4 t) (iblk m c 5 t) (iblk m c 6 t) (ix3 p n o)
    = result (V m c main_arg0) (V m c main_arg1) (V m c main_arg2) (V m c main_arg3) (V m c main_arg4) (V m c main_arg5) (V m c main_arg6) (((cfg0.win 7).blk t).view.emb (ix3 p n o))
  refine (Cert.KernelRow.payload_apply (iblk m c 0 t) (iblk m c 1 t) (iblk m c 2 t) (iblk m c 3 t) (iblk m c 4 t) (iblk m c 5 t) (iblk m c 6 t) p n o).trans ?_
  unfold result
  refine kerRow_congr (fun n' c' => ?_) (fun c' h' => ?_) (fun h' => ?_) (fun k' h' => ?_) (fun h' => ?_) (fun k' q' => ?_) (fun q' => ?_) ?_
  · show V m c main_arg0 (((cfg0.win 0).blk t).view.emb (ix3 p n' c')) = V m c main_arg0 _
    refine congrArg (V m c main_arg0) (funext fun a => Fin.ext ?_)
    match a with
    | ⟨0, _⟩ => show win0_0.index t (0 : Fin 3) * 4 + 1 * p.val = win0_7.index t (0 : Fin 3) * 4 + 1 * p.val; omega
    | ⟨1, _⟩ => show win0_0.index t (1 : Fin 3) * 512 + 1 * n'.val = n'.val; omega
    | ⟨2, _⟩ => show win0_0.index t (2 : Fin 3) * 768 + 1 * c'.val = c'.val; omega
  · show V m c main_arg1 (((cfg0.win 1).blk t).view.emb (ix2 c' h')) = V m c main_arg1 _
    refine congrArg (V m c main_arg1) (funext fun a => Fin.ext ?_)
    match a with
    | ⟨0, _⟩ => show win0_1.index t (0 : Fin 2) * 768 + 1 * c'.val = c'.val; omega
    | ⟨1, _⟩ => show win0_1.index t (1 : Fin 2) * 512 + 1 * h'.val = h'.val; omega
  · show V m c main_arg2 (((cfg0.win 2).blk t).view.emb (ix1 h')) = V m c main_arg2 _
    refine congrArg (V m c main_arg2) (funext fun a => Fin.ext ?_)
    match a with
    | ⟨0, _⟩ => show win0_2.index t (0 : Fin 1) * 512 + 1 * h'.val = h'.val; omega
  · show V m c main_arg3 (((cfg0.win 3).blk t).view.emb (ix2 k' h')) = V m c main_arg3 _
    refine congrArg (V m c main_arg3) (funext fun a => Fin.ext ?_)
    match a with
    | ⟨0, _⟩ => show win0_3.index t (0 : Fin 2) * 512 + 1 * k'.val = k'.val; omega
    | ⟨1, _⟩ => show win0_3.index t (1 : Fin 2) * 512 + 1 * h'.val = h'.val; omega
  · show V m c main_arg4 (((cfg0.win 4).blk t).view.emb (ix1 h')) = V m c main_arg4 _
    refine congrArg (V m c main_arg4) (funext fun a => Fin.ext ?_)
    match a with
    | ⟨0, _⟩ => show win0_4.index t (0 : Fin 1) * 512 + 1 * h'.val = h'.val; omega
  · show V m c main_arg5 (((cfg0.win 5).blk t).view.emb (ix2 k' q')) = V m c main_arg5 _
    refine congrArg (V m c main_arg5) (funext fun a => Fin.ext ?_)
    match a with
    | ⟨0, _⟩ => show win0_5.index t (0 : Fin 2) * 512 + 1 * k'.val = k'.val; omega
    | ⟨1, _⟩ => show win0_5.index t (1 : Fin 2) * 768 + 1 * q'.val = q'.val; omega
  · show V m c main_arg6 (((cfg0.win 6).blk t).view.emb (ix1 q')) = V m c main_arg6 _
    refine congrArg (V m c main_arg6) (funext fun a => Fin.ext ?_)
    match a with
    | ⟨0, _⟩ => show win0_6.index t (0 : Fin 1) * 768 + 1 * q'.val = q'.val; omega
  · refine Fin.ext ?_
    show o.val = win0_7.index t (2 : Fin 3) * 768 + 1 * o.val
    omega

/-- An index of the output array is in point `t`'s block iff each coordinate is in the block's range on its axis. -/
theorem mem_blk (t : Fin cfg0.N) (i : S64x128x768.Idx) :
    i ∈ ((cfg0.win 7).blk t).view.set ↔ ∀ a : Fin 3, win0_7.index t a * S4x128x768.size a ≤ (i a).val ∧ (i a).val < win0_7.index t a * S4x128x768.size a + S4x128x768.size a := by
  show i ∈ ((View.whole main_v0).slice (win0_7.rect t)).set ↔ _
  rw [View.set_slice_whole, Rect.mem_set_unit]
  exact Iff.rfl

/-- THE COVER: batch element `b` lies in the block of the point whose block index is `b / 4`. -/
theorem cover (i : S64x128x768.Idx) :
    ∃ t : Fin cfg0.N, (cfg0.win 7).flush t = true ∧ i ∈ ((cfg0.win 7).blk t).view.set := by
  have hi0 : (i 0).val < 64 := (i 0).isLt
  have hi1 : (i 1).val < 128 := (i 1).isLt
  have hi2 : (i 2).val < 768 := (i 2).isLt
  obtain ⟨t, ht⟩ := idx_onto ⟨(i 0).val / 4, by omega⟩
  have q0 : win0_7.index t (0 : Fin 3) = (i 0).val / 4 := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 4 ≤ (i 0).val ∧ (i 0).val < win0_7.index t (0 : Fin 3) * 4 + 4; omega
  | ⟨1, _⟩ => show win0_7.index t (1 : Fin 3) * 128 ≤ (i 1).val ∧ (i 1).val < win0_7.index t (1 : Fin 3) * 128 + 128; omega
  | ⟨2, _⟩ => show win0_7.index t (2 : Fin 3) * 768 ≤ (i 2).val ∧ (i 2).val < win0_7.index t (2 : Fin 3) * 768 + 768; omega

/-- THE ARRAY after the run is the specification of the argument arrays. -/
theorem final (c : Dev nD) : (dats m 0 c).arrAt 7 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (result (V m c main_arg0) (V m c main_arg1) (V m c main_arg2) (V m c main_arg3) (V m c main_arg4) (V m c main_arg5) (V m c main_arg6)) (fun t _ => flushed_eq m c t) cover

/-- The kernel's run re-posted: the output array at the specification of the arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.OutputArray

end
-- ==== Proof.lean ====
/-
  A fused three-layer graph-convolution stack on a fully connected graph, against its layer-by-layer reference.

  On a fully connected graph with self loops the normalized adjacency is the uniform average over the 512 nodes, so a
  layer is `relu (mean over nodes of (x · W) + b)`, the same row at every node.  The reference computes it that way,
  three times, and keeps the first 128 nodes.  The kernel averages the node rows of `x` first, sends the averaged row
  through the three dense layers once per batch element, and copies the row to the 128 node positions.

  Equality over the extended reals, index by index (`algebraic`):
    * the kernel's output array is `ResultSpec.result` of the arguments (KernelRow: the body at an index; OutputArray:
      what each of the 16 grid points writes back, and the blocks tile the array);
    * the reference's result is its row `MeanDense.refRow` of the batch element (RefRow), which on real entries is the
      kernel's row `MeanDense.kerRow`: the mean is linear, so it commutes with the product by the weights, and the mean of
      512 equal rows is the row (MeanDense.refRow_eq_kerRow).  Both steps use distributivity, so they need every entry
      to be a real number: that is what the precondition `finite_inputs` gives (FiniteEntries).
  The three frame claims are the generated frames (the reference's is its generated run with the result dropped), and the
  idealization rewrote nothing, so `preserves` is `True`.
-/
import proofs.«126272_j90683939487935_2_alg».proof.Defs
import proofs.«126272_j90683939487935_2_alg».proof.Proof.Gen.Kernel
import proofs.«126272_j90683939487935_2_alg».proof.Proof.Gen.Kernel.Skeleton
import proofs.«126272_j90683939487935_2_alg».proof.Proof.Gen.Kernel.Launch
import proofs.«126272_j90683939487935_2_alg».proof.Proof.Gen.Kernel.Points
import proofs.«126272_j90683939487935_2_alg».proof.Proof.Gen.Kernel.Frame
import proofs.«126272_j90683939487935_2_alg».proof.Proof.Gen.KernelIdeal
import proofs.«126272_j90683939487935_2_alg».proof.Proof.Gen.KernelIdeal.Skeleton
import proofs.«126272_j90683939487935_2_alg».proof.Proof.Gen.KernelIdeal.Launch
import proofs.«126272_j90683939487935_2_alg».proof.Proof.Gen.KernelIdeal.Points
import proofs.«126272_j90683939487935_2_alg».proof.Proof.Gen.KernelIdeal.Frame
import proofs.«126272_j90683939487935_2_alg».proof.Proof.Gen.ReferenceIdeal
import proofs.«126272_j90683939487935_2_alg».proof.Proof.Gen.Pre_finite_inputs
import proofs.«126272_j90683939487935_2_alg».proof.Proof.Gen.KernelIdeal.Value
import proofs.«126272_j90683939487935_2_alg».proof.Proof.Gen.ReferenceIdeal.Run
import proofs.«126272_j90683939487935_2_alg».proof.Proof.Gen.ReferenceIdeal.Read
import proofs.«126272_j90683939487935_2_alg».proof.Proof.FiniteEntries
import proofs.«126272_j90683939487935_2_alg».proof.Proof.RefArray
import proofs.«126272_j90683939487935_2_alg».proof.Proof.OutputArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the output at `ResultSpec.result` of the kernel's arguments: the kernel by its run read block by
    block, the reference by its run read index by index, on arguments that agree and whose entries are real numbers. -/
theorem algebraic : Cert.algebraic_KernelIdeal_ReferenceIdeal := by
  intro m ρ m' ρ' hpre hagree
  refine ⟨_, Cert.OutputArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.FiniteEntries.real_of_pre _ _ _ _ _ _ _ (hpre c)
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v30_eq _ _ _ _ _ _ _).trans
    (Cert.RefArray.ref_eq_result _ _ _ _ _ _ _ h0 h1 h2 h3 h4 h5 h6)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
